-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S262144x8 : S_.BroadcastsInDim S262144x8 (![] : Fin 0 → Fin S262144x8.rank)
  reducesTo_S262144x8_S_d0_1 : S262144x8.ReducesTo [0, 1] S_

variable [Facts]

def fn_part2 {F : FTy → Type} [FloatOps F] (main_arg7 : FVec F S262144x8 .f32) (main_v33 : IVec S_ 1) : IVec S_ 1 :=
  let main_v34 : FVec F S262144x8 .f32 := Host.absf main_arg7
  let main_cst_12 : FVec F S_ .f32 := constant S_ .f32 0x7F800000#32
  let main_v35 : FVec F S262144x8 .f32 := broadcastInDim S262144x8 ![] bcast_S_S262144x8 main_cst_12
  let main_v36 : IVec S262144x8 1 := cmpf .olt main_v34 main_v35
  let main_c_13 : IVec S_ 1 := constantI S_ 1 1#1
  let main_v37 : IVec S_ 1 := (fun x v => Host.reduce IntOp.andi x v reducesTo_S262144x8_S_d0_1 h_S_) main_v36 main_c_13
  let main_v38 : IVec S_ 1 := andi main_v33 main_v37
  main_v38

def fn_part1 {F : FTy → Type} [FloatOps F] (main_arg4 : FVec F S256 .f32) (main_arg5 : FVec F S16x256 .f32) (main_arg6 : FVec F S16 .f32) (main_arg7 : FVec F S262144x8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S256x128 .f32) (main_arg2 : FVec F S256 .f32) (main_arg3 : FVec F S256x256 .f32) (main_arg4 : FVec F S256 .f32) (main_arg5 : FVec F S16x256 .f32) (main_arg6 : FVec F S16 .f32) (main_arg7 : FVec F S262144x8 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S128x256 : Shape := ⟨2, ![128, 256]⟩
abbrev S256x16 : Shape := ⟨2, ![256, 16]⟩
abbrev S1x256 : Shape := ⟨2, ![1, 256]⟩
abbrev S1x16 : Shape := ⟨2, ![1, 16]⟩
abbrev S2048x128 : Shape := ⟨2, ![2048, 128]⟩
abbrev S2048x8 : Shape := ⟨2, ![2048, 8]⟩
abbrev S2048x256 : Shape := ⟨2, ![2048, 256]⟩
abbrev S2048x16 : Shape := ⟨2, ![2048, 16]⟩

abbrev nBuf : Space → Nat
  | .hbm => 15
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S262144x8, .f32⟩
  | .hbm, ⟨8, _⟩ => ⟨S128x256, .f32⟩
  | .hbm, ⟨9, _⟩ => ⟨S256x256, .f32⟩
  | .hbm, ⟨10, _⟩ => ⟨S256x16, .f32⟩
  | .hbm, ⟨11, _⟩ => ⟨S1x256, .f32⟩
  | .hbm, ⟨12, _⟩ => ⟨S1x256, .f32⟩
  | .hbm, ⟨13, _⟩ => ⟨S1x16, .f32⟩
  | .hbm, ⟨14, _⟩ => ⟨S262144x8, .i32⟩
  | .local _ .vmem, ⟨0, _⟩ => ⟨S2048x128, .f32⟩
  | .local _ .vmem, ⟨1, _⟩ => ⟨S2048x128, .f32⟩
  | .local _ .vmem, ⟨2, _⟩ => ⟨S2048x8, .f32⟩
  | .local _ .vmem, ⟨3, _⟩ => ⟨S2048x8, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x16, .f32⟩
  | .local _ .vmem, ⟨9, _⟩ => ⟨S1x16, .f32⟩
  | .local _ .vmem, ⟨10, _⟩ => ⟨S2048x8, .i32⟩
  | .local _ .vmem, ⟨11, _⟩ => ⟨S2048x8, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x8 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x128_S128x256_1_0 : S256x128.Transposes [1, 0] S128x256
  transposes_S256x256_S256x256_1_0 : S256x256.Transposes [1, 0] S256x256
  transposes_S16x256_S256x16_1_0 : S16x256.Transposes [1, 0] S256x16
  shapeCasts_S256_S1x256 : S256.ShapeCasts S1x256
  shapeCasts_S16_S1x16 : S16.ShapeCasts S1x16
  inb_S2048x128_S2048x128_0_0 : ∀ a, (![0, 0] : Fin 2 → Nat) a + S2048x128.size a ≤ S2048x128.size a
  h_S2048x128 : 0 < S2048x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  slices_S2048x16_o0_0_S2048x8 : S2048x16.Slices ![0, 0] S2048x8
  slices_S2048x16_o0_8_S2048x8 : S2048x16.Slices ![0, 8] S2048x8
  inb_S2048x8_S2048x8_0_0 : ∀ a, (![0, 0] : Fin 2 → Nat) a + S2048x8.size a ≤ S2048x8.size a
  h_S2048x8 : 0 < S2048x8.numel
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S262144x8.size a
  hwx0_1 : ∀ i : grid0.Coords, EltTy.bits .f32 = 32 ∨ (Rect.block (s := S262144x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S256x16.size a
  hwx0_6 : ∀ i : grid0.Coords, EltTy.bits .f32 = 32 ∨ (Rect.block (s := S256x16) S256x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x8.size a ≤ S262144x8.size a
  hwx0_8 : ∀ i : grid0.Coords, EltTy.bits .i32 = 32 ∨ (Rect.block (s := S262144x8) S2048x8.size (cc0_transform_8 i) (hinb0_8 i)).WholeWords (EltTy.packing .i32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2048x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S128x256 : Shape := ⟨2, ![128, 256]⟩
abbrev S262144x256 : Shape := ⟨2, ![262144, 256]⟩
abbrev S1x256 : Shape := ⟨2, ![1, 256]⟩
abbrev S_ : Shape := ⟨0, ![]⟩
abbrev S256x16 : Shape := ⟨2, ![256, 16]⟩
abbrev S262144x16 : Shape := ⟨2, ![262144, 16]⟩
abbrev S1x16 : Shape := ⟨2, ![1, 16]⟩

abbrev nBuf : Space → Nat
  | .hbm => 49
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S262144x8, .f32⟩
  | .hbm, ⟨8, _⟩ => ⟨S128x256, .f32⟩
  | .hbm, ⟨9, _⟩ => ⟨S262144x256, .f32⟩
  | .hbm, ⟨10, _⟩ => ⟨S1x256, .f32⟩
  | .hbm, ⟨11, _⟩ => ⟨S262144x256, .f32⟩
  | .hbm, ⟨12, _⟩ => ⟨S262144x256, .f32⟩
  | .hbm, ⟨13, _⟩ => ⟨S_, .f32⟩
  | .hbm, ⟨14, _⟩ => ⟨S262144x256, .f32⟩
  | .hbm, ⟨15, _⟩ => ⟨S262144x256, .f32⟩
  | .hbm, ⟨16, _⟩ => ⟨S256x256, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S256x16, .f32⟩
  | .hbm, ⟨25, _⟩ => ⟨S262144x16, .f32⟩
  | .hbm, ⟨26, _⟩ => ⟨S1x16, .f32⟩
  | .hbm, ⟨27, _⟩ => ⟨S262144x16, .f32⟩
  | .hbm, ⟨28, _⟩ => ⟨S262144x16, .f32⟩
  | .hbm, ⟨29, _⟩ => ⟨S262144x8, .f32⟩
  | .hbm, ⟨30, _⟩ => ⟨S262144x8, .f32⟩
  | .hbm, ⟨31, _⟩ => ⟨S262144x8, .f32⟩
  | .hbm, ⟨32, _⟩ => ⟨S262144x8, .f32⟩
  | .hbm, ⟨33, _⟩ => ⟨S262144x8, .f32⟩
  | .hbm, ⟨34, _⟩ => ⟨S262144x8, .f32⟩
  | .hbm, ⟨35, _⟩ => ⟨S262144x8, .f32⟩
  | .hbm, ⟨36, _⟩ => ⟨S_, .f32⟩
  | .hbm, ⟨37, _⟩ => ⟨S262144x8, .f32⟩
  | .hbm, ⟨38, _⟩ => ⟨S262144x8, .f32⟩
  | .hbm, ⟨39, _⟩ => ⟨S_, .f32⟩
  | .hbm, ⟨40, _⟩ => ⟨S262144x8, .f32⟩
  | .hbm, ⟨41, _⟩ => ⟨S262144x8, .f32⟩
  | .hbm, ⟨42, _⟩ => ⟨S_, .f32⟩
  | .hbm, ⟨43, _⟩ => ⟨S262144x8, .f32⟩
  | .hbm, ⟨44, _⟩ => ⟨S262144x8, .f32⟩
  | .hbm, ⟨45, _⟩ => ⟨S_, .f32⟩
  | .hbm, ⟨46, _⟩ => ⟨S262144x8, .f32⟩
  | .hbm, ⟨47, _⟩ => ⟨S262144x8, .f32⟩
  | .hbm, ⟨48, _⟩ => ⟨S262144x8, .i32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  transposes_S16x256_S256x16_1_0 : S16x256.Transposes [1, 0] S256x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  slices_S262144x16_S262144x8_0_0 : S262144x16.Slices ![0, 0] S262144x8
  slices_S262144x16_S262144x8_0_8 : S262144x16.Slices ![0, 8] S262144x8
  bcast_S_S262144x8 : S_.BroadcastsInDim S262144x8 (![] : Fin 0 → Fin S262144x8.rank)
  dot_S262144x128_S128x256_S262144x256_1_0_0_1_n_n_wf : DotDims.WF S262144x128 S128x256 S262144x256 [1] [0] [0] [1] [] []
  dot_S262144x256_S256x256_S262144x256_1_0_0_1_n_n_wf : DotDims.WF S262144x256 S256x256 S262144x256 [1] [0] [0] [1] [] []
  dot_S262144x256_S256x16_S262144x16_1_0_0_1_n_n_wf : DotDims.WF S262144x256 S256x16 S262144x16 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x16_S262144x16_1_0_0_1_n_n : DotDims S262144x256 S256x16 S262144x16 where
  lhsContracting := [1]
  rhsContracting := [0]
  lhsNonContracting := [0]
  rhsNonContracting := [1]
  lhsBatch := []
  rhsBatch := []
  wf := dot_S262144x256_S256x16_S262144x16_1_0_0_1_n_n_wf

class Facts : Prop extends Facts₀ where

variable [Facts]
-- ==== Proof.Spec.lean ====
/-
  The function both programs compute, written once over the eight argument arrays.

  A row `r` of the state (128 numbers) goes through two rectified dense layers of width 256 and one dense
  layer of width 16:
      hidden1 r j = max (∑ k, x[r,k] · W1[j,k] + b1[j]) 0          (j < 256)
      hidden2 r j = max (∑ k, hidden1 r k · W2[j,k] + b2[j]) 0      (j < 256)
      head    r j =      ∑ k, hidden2 r k · W3[j,k] + b3[j]         (j < 16)
  The first eight head outputs are means `u`, the last eight scales `s`; with the noise `e = eps[r,a]`
  the sample `u + |s| · e` is squashed by the logistic function `1 / (1 + exp (-z))`, scaled to
  `8 · σ + 1` and truncated to a 32-bit integer.  Every sum is a finite sum of extended reals, every literal
  is kept as the f32 word it was written with, and nothing here depends on how the rows are grouped into
  blocks: that is what makes one function serve a program that walks the rows 2048 at a time and a
  program that treats all 262144 at once.
-/
import Idealize.ShloMosaic.PureOps.Ideal
import Idealize.ShloMosaic.Lib.ValueIdx

noncomputable section

open scoped BigOperators

namespace Cert.Policy

open Idealize.ShloMosaic Idealize.ShloMosaic.ValueIdx

/-- A matrix of extended reals with `a` rows and `b` columns. -/
abbrev Mat (a b : ℕ) : Type := (⟨2, ![a, b]⟩ : Shape).Idx → EReal
/-- A vector of extended reals of length `a`. -/
abbrev Vect (a : ℕ) : Type := (⟨1, ![a]⟩ : Shape).Idx → EReal

/-- The f32 word of `0.0`: the rectifier's threshold. -/
abbrev zeroW : EReal := Ideal.ofBits .f32 0x00000000#32
/-- The f32 word of `1.0`. -/
abbrev oneW : EReal := Ideal.ofBits .f32 0x3F800000#32
/-- The f32 word of `8.0`. -/
abbrev eightW : EReal := Ideal.ofBits .f32 0x41000000#32

/-- The word of `1.0` is the extended real `1`. -/
theorem oneW_eq : oneW = 1 := by
  simp [Ideal.ofBits, Ideal.ieee, -EReal.coe_mul]; norm_num

/-- Unit `j` of the first hidden layer on row `r`. -/
def hidden1 (x : Mat 262144 128) (W1 : Mat 256 128) (b1 : Vect 256) (r : Fin 262144) (j : Fin 256) : EReal :=
  max ((∑ k : Fin 128, x (ix2 r k) * W1 (ix2 j k)) + b1 (ix1 j)) zeroW

/-- Unit `j` of the second hidden layer on row `r`. -/
def hidden2 (x : Mat 262144 128) (W1 : Mat 256 128) (b1 : Vect 256) (W2 : Mat 256 256) (b2 : Vect 256)
    (r : Fin 262144) (j : Fin 256) : EReal :=
  max ((∑ k : Fin 256, hidden1 x W1 b1 r k * W2 (ix2 j k)) + b2 (ix1 j)) zeroW

/-- Output `j` of the last dense layer on row `r`: a mean for `j < 8`, a scale for `j ≥ 8`. -/
def head (x : Mat 262144 128) (W1 : Mat 256 128) (b1 : Vect 256) (W2 : Mat 256 256) (b2 : Vect 256)
    (W3 : Mat 16 256) (b3 : Vect 16) (r : Fin 262144) (j : Fin 16) : EReal :=
  (∑ k : Fin 256, hidden2 x W1 b1 W2 b2 r k * W3 (ix2 j k)) + b3 (ix1 j)

/-- From a mean `u`, a scale `s` and a noise value `e` to the integer bucket of the squashed sample:
    `⌊8 · σ(u + |s| · e) + 1⌋` toward zero, with `σ z = 1 / (1 + exp (-z))` and `|s| = max s (-s)`. -/
def bucket (u s e : EReal) : BitVec 32 :=
  Ideal.fptosi 32 (Ideal.div oneW (oneW + Ideal.exp (-(u + max s (-s) * e))) * eightW + oneW)

/-- Column `a` of the means among the sixteen head outputs. -/
def meanCol (a : Fin 8) : Fin 16 := ⟨a.val, by omega⟩
/-- Column `a` of the scales among the sixteen head outputs. -/
def scaleCol (a : Fin 8) : Fin 16 := ⟨8 + a.val, by omega⟩

/-- The result at row `r`, action `a`. -/
def actionAt (x : Mat 262144 128) (W1 : Mat 256 128) (b1 : Vect 256) (W2 : Mat 256 256) (b2 : Vect 256)
    (W3 : Mat 16 256) (b3 : Vect 16) (eps : Mat 262144 8) (r : Fin 262144) (a : Fin 8) : BitVec 32 :=
  bucket (head x W1 b1 W2 b2 W3 b3 r (meanCol a)) (head x W1 b1 W2 b2 W3 b3 r (scaleCol a)) (eps (ix2 r a))

/-- The whole result array as one function of the eight argument arrays. -/
def action (x : Mat 262144 128) (W1 : Mat 256 128) (b1 : Vect 256) (W2 : Mat 256 256) (b2 : Vect 256)
    (W3 : Mat 16 256) (b3 : Vect 16) (eps : Mat 262144 8) : (⟨2, ![262144, 8]⟩ : Shape).Idx → BitVec 32 :=
  fun i => actionAt x W1 b1 W2 b2 W3 b3 eps (i 0) (i 1)

/-- The result array at the index with coordinates `r`, `a`. -/
theorem action_ix2 (x : Mat 262144 128) (W1 : Mat 256 128) (b1 : Vect 256) (W2 : Mat 256 256) (b2 : Vect 256)
    (W3 : Mat 16 256) (b3 : Vect 16) (eps : Mat 262144 8) (r : Fin 262144) (a : Fin 8) :
    action x W1 b1 W2 b2 W3 b3 eps (ix2 r a) = actionAt x W1 b1 W2 b2 W3 b3 eps r a := rfl

end Cert.Policy

end
-- ==== Proof.RefValue.lean ====
/-
  The reference's result, stage by stage, is the specification's function.

  The reference treats all 262144 rows at once.  Read at row `r` and column `j`, each of its three matrix
  products is the sum over the contracted coordinate `k` of the left operand at `(r, k)` times the weight
  matrix — transposed on the way in — at `(j, k)`; the bias, broadcast along the rows, is read at `j`;
  the rectifier is the maximum with the zero word.  So the three layers are `hidden1`, `hidden2` and `head`
  of the specification, one after the other, each stage using the one before it under the sum.  The tail
  — two column slices, the absolute value, the noise, `1 / (1 + exp (-z))` spelt with negate, exponential,
  add and divide, the scaling by the words of 8 and 1 and the truncation — is `bucket` by unfolding.
-/
import proofs.«124091_j34110630265503_2_alg».proof.Proof.Gen.ReferenceIdeal.Read
import proofs.«124091_j34110630265503_2_alg».proof.Proof.Spec

noncomputable section

open scoped BigOperators

namespace Cert.ReferenceIdeal.RefValue

open Cert.ReferenceIdeal Cert.ReferenceIdeal.Read Idealize.ShloMosaic Idealize.ShloMosaic.ValueIdx Cert.Policy

variable (x0 : (⟨S262144x128, .f32⟩ : BufTy).Contents (Elt Ideal)) (x1 : (⟨S256x128, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S16x256, .f32⟩ : BufTy).Contents (Elt Ideal))
  (x6 : (⟨S16, .f32⟩ : BufTy).Contents (Elt Ideal)) (x7 : (⟨S262144x8, .f32⟩ : BufTy).Contents (Elt Ideal))

/-- After the first rectifier the reference holds `hidden1` at every row and unit. -/
theorem layer1 (r : Fin 262144) (j : Fin 256) :
    val_main_v5 (F := Ideal) x0 x1 x2 (ix2 r j) = hidden1 x0 x1 x2 r j := by
  rw [val_main_v5_apply, val_main_v4_apply, val_main_v1_apply, val_main_v3_apply, val_main_v2_apply,
    val_main_call0_v0_apply, val_main_call0_cst_apply]
  simp only [val_main_v0_apply]
  have e1 : ∀ k : Fin 128, lidx_main_v1 (ix2 r j) k = ix2 r k := fun k => funext fun a => Fin.ext (by
    match a with | ⟨0, _⟩ => rfl | ⟨1, _⟩ => rfl)
  have e2 : ∀ k : Fin 128, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  simp only [e1, e2, e3]
  rfl

/-- After the second rectifier the reference holds `hidden2`. -/
theorem layer2 (r : Fin 262144) (j : Fin 256) :
    val_main_v11 (F := Ideal) x0 x1 x2 x3 x4 (ix2 r j) = hidden2 x0 x1 x2 x3 x4 r j := by
  rw [val_main_v11_apply, val_main_v10_apply, val_main_v7_apply, val_main_v9_apply, val_main_v8_apply,
    val_main_call1_v0_apply, val_main_call1_cst_apply]
  simp only [val_main_v6_apply]
  have e1 : ∀ k : Fin 256, lidx_main_v7 (ix2 r j) k = ix2 r k := fun k => funext fun a => Fin.ext (by
    match a with | ⟨0, _⟩ => rfl | ⟨1, _⟩ => rfl)
  have e2 : ∀ k : Fin 256, idx_main_v6 (ridx_main_v7 (ix2 r j) k) = ix2 j k := fun k => funext fun a => Fin.ext (by
    match a with | ⟨0, _⟩ => rfl | ⟨1, _⟩ => rfl)
  have e3 : idx_main_v8 (idx_main_v9 (ix2 r j)) = ix1 j := funext fun a => Fin.ext (by
    match a with | ⟨0, _⟩ => rfl)
  simp only [e1, e2, e3, layer1]
  rfl

/-- After the last dense layer the reference holds `head`. -/
theorem layer3 (r : Fin 262144) (j : Fin 16) :
    val_main_v16 (F := Ideal) x0 x1 x2 x3 x4 x5 x6 (ix2 r j) = head x0 x1 x2 x3 x4 x5 x6 r j := by
  rw [val_main_v16_apply, val_main_v13_apply, val_main_v15_apply, val_main_v14_apply]
  simp only [val_main_v12_apply]
  have e1 : ∀ k : Fin 256, lidx_main_v13 (ix2 r j) k = ix2 r k := fun k => funext fun a => Fin.ext (by
    match a with | ⟨0, _⟩ => rfl | ⟨1, _⟩ => rfl)
  have e2 : ∀ k : Fin 256, idx_main_v12 (ridx_main_v13 (ix2 r j) k) = ix2 j k := fun k => funext fun a => Fin.ext (by
    match a with | ⟨0, _⟩ => rfl | ⟨1, _⟩ => rfl)
  have e3 : idx_main_v14 (idx_main_v15 (ix2 r j)) = ix1 j := funext fun a => Fin.ext (by
    match a with | ⟨0, _⟩ => rfl)
  simp only [e1, e2, e3, layer2]
  rfl

/-- The reference's result array is the specification's function of its eight arguments. -/
theorem result_eq : val_main_v32 (F := Ideal) x0 x1 x2 x3 x4 x5 x6 x7 = action x0 x1 x2 x3 x4 x5 x6 x7 := by
  funext i
  obtain ⟨r, a, rfl⟩ : ∃ (r : Fin 262144) (a : Fin 8), i = ix2 r a := ⟨i 0, i 1, eq_ix2 i⟩
  rw [action_ix2, val_main_v32_apply, val_main_v31_apply, val_main_v29_apply, val_main_v27_apply, val_main_v25_apply,
    val_main_v23_apply, val_main_v22_apply, val_main_v21_apply, val_main_v20_apply, val_main_v19_apply,
    val_main_v18_apply, val_main_v17_apply, val_main_v24_apply, val_main_v26_apply, val_main_v28_apply,
    val_main_v30_apply, val_main_cst_apply, val_main_cst_0_apply, val_main_cst_1_apply, val_main_cst_2_apply]
  have e17 : idx_main_v17 (ix2 r a) = ix2 r (meanCol a) := funext fun b => Fin.ext (by
    match b with | ⟨0, _⟩ => rfl | ⟨1, _⟩ => rfl)
  have e18 : idx_main_v18 (ix2 r a) = ix2 r (scaleCol a) := funext fun b => Fin.ext (by
    match b with | ⟨0, _⟩ => rfl | ⟨1, _⟩ => rfl)
  rw [e17, e18, layer3, layer3]
  rfl

end Cert.ReferenceIdeal.RefValue

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.Body.lean ====
/-
  What the kernel's body computes on one block of 2048 rows, read at a row and a column.

  The body's one store writes a single expression of its eight loads.  It is cut here into four stages —
  two rectified dense layers, a third dense layer, and the squashing tail — and each stage is read at an
  index on its own:
    * a dense layer at row `p`, unit `j` is `∑ k, input[p,k] · weight[k,j] + bias[0,j]` (the product unit
      accumulates into zero; the bias is one row broadcast over the 2048 rows; the shape casts are to the
      same shape), followed for the first two layers by the maximum with the zero word;
    * the tail at row `p`, action `a` takes columns `a` and `8 + a` of the third layer's sixteen, the noise at
      `(p, a)`, and is the specification's `bucket` of the three: the one logistic operation is
      `1 / (1 + exp (-z))` by definition, and the word of 1.0 is the number 1.
  Row `p` of a block depends on row `p` of the block's state and noise and on the whole weight arrays only,
  so whenever the block's loads agree with the argument arrays at an array row `r` — the weights being held
  transposed and the biases as one-row matrices — the body's result at `(p, a)` is the specification's
  `actionAt … r a`.
-/
import proofs.«124091_j34110630265503_2_alg».proof.Proof.Gen.KernelIdeal.Skeleton
import proofs.«124091_j34110630265503_2_alg».proof.Proof.Spec
import proofs.«124091_j34110630265503_2_alg».proof.Proof.LibMatmulRows
import Idealize.ShloMosaic.Lib.Pipeline.Value
import Idealize.ShloMosaic.Lib.ValueLayout
import Idealize.ShloMosaic.Lib.ValueIdx

noncomputable section

open scoped BigOperators

namespace Cert.KernelIdeal.Body

open Cert.KernelIdeal Cert.KernelIdeal.Gen Idealize.ShloMosaic Idealize.ShloMosaic.ValueIdx Cert.Policy

/-! ## The four stages -/

/-- The first rectified dense layer on a block: 128 inputs, 256 units. -/
def dense1 (x : FVec Ideal S2048x128 .f32) (w : FVec Ideal S128x256 .f32) (b : FVec Ideal S1x256 .f32) : FVec Ideal S2048x256 .f32 :=
  maximumf (addf (matmul dot_S2048x128_S128x256_S2048x256_1_0_0_1_n_n (some .fp32) x (shapeCast S128x256 w shapeCasts_S128x256_S128x256) (constant S2048x256 .f32 0x00000000#32))
    (broadcastTo S2048x256 (shapeCast S1x256 b shapeCasts_S1x256_S1x256) broadcasts_S1x256_S2048x256)) (broadcast S2048x256 (Scalar.ofBits .f32 0x00000000#32))

/-- The second rectified dense layer on a block: 256 inputs, 256 units. -/
def dense2 (h : FVec Ideal S2048x256 .f32) (w : FVec Ideal S256x256 .f32) (b : FVec Ideal S1x256 .f32) : FVec Ideal S2048x256 .f32 :=
  maximumf (addf (matmul dot_S2048x256_S256x256_S2048x256_1_0_0_1_n_n (some .fp32) h (shapeCast S256x256 w shapeCasts_S256x256_S256x256) (constant S2048x256 .f32 0x00000000#32))
    (broadcastTo S2048x256 (shapeCast S1x256 b shapeCasts_S1x256_S1x256) broadcasts_S1x256_S2048x256)) (broadcast S2048x256 (Scalar.ofBits .f32 0x00000000#32))

/-- The third dense layer on a block: 256 inputs, 16 outputs, no rectifier. -/
def dense3 (h : FVec Ideal S2048x256 .f32) (w : FVec Ideal S256x16 .f32) (b : FVec Ideal S1x16 .f32) : FVec Ideal S2048x16 .f32 :=
  addf (matmul dot_S2048x256_S256x16_S2048x16_1_0_0_1_n_n (some .fp32) h (shapeCast S256x16 w shapeCasts_S256x16_S256x16) (constant S2048x16 .f32 0x00000000#32))
    (broadcastTo S2048x16 (shapeCast S1x16 b shapeCasts_S1x16_S1x16) broadcasts_S1x16_S2048x16)

/-- The tail on a block: means, scales and noise to integer buckets. -/
def squash (n : FVec Ideal S2048x16 .f32) (e : FVec Ideal S2048x8 .f32) : IVec S2048x8 32 :=
  fptosi 32 (addf (mulf (logistic (addf (extractStridedSlice S2048x8 ![0, 0] n slices_S2048x16_o0_0_S2048x8)
      (mulf (absf (extractStridedSlice S2048x8 ![0, 8] n slices_S2048x16_o0_8_S2048x8)) e)))
    (broadcast S2048x8 (Scalar.ofBits .f32 0x41000000#32))) (broadcast S2048x8 (Scalar.ofBits .f32 0x3F800000#32)))

/-- The stored value is the four stages composed. -/
theorem payload_eq (v0 : Vec Ideal S2048x128 .f32) (v1 : Vec Ideal S128x256 .f32) (v4 : Vec Ideal S1x256 .f32)
    (v10 : Vec Ideal S256x256 .f32) (v13 : Vec Ideal S1x256 .f32) (v19 : Vec Ideal S256x16 .f32) (v22 : Vec Ideal S1x16 .f32)
    (v29 : Vec Ideal S2048x8 .f32) :
    k0_pay1 (k0_pay2 (F := Ideal) v0 v1 v4 v10 v13 v19 v22 v29) (k0_pay3 (F := Ideal))
      = squash (dense3 (dense2 (dense1 v0 v1 v4) v10 v13) v19 v22) v29 := rfl

/-! ## The three products' operand indices -/

theorem dot1_l0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl
theorem dot1_l1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem dot1_r0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem dot1_r1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

theorem dot2_l0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem dot2_l1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem dot2_r0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem dot2_r1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

theorem dot3_l0 (i : S2048x16.Idx) (q : dot_S2048x256_S256x16_S2048x16_1_0_0_1_n_n.contr.Idx) :
    (dot_S2048x256_S256x16_S2048x16_1_0_0_1_n_n.lhsIdx i q 0).val = (i 0).val := by
  unfold DotDims.lhsIdx
  rw [dif_neg (show ¬(0 : Fin S2048x256.rank) ∈ dot_S2048x256_S256x16_S2048x16_1_0_0_1_n_n.lhsBatch by decide),
    dif_pos (show (0 : Fin S2048x256.rank) ∈ dot_S2048x256_S256x16_S2048x16_1_0_0_1_n_n.lhsNonContracting by decide)]
  rfl
theorem dot3_l1 (i : S2048x16.Idx) (q : dot_S2048x256_S256x16_S2048x16_1_0_0_1_n_n.contr.Idx) :
    (dot_S2048x256_S256x16_S2048x16_1_0_0_1_n_n.lhsIdx i q 1).val = (q ⟨0, by decide⟩).val :=
  dot_S2048x256_S256x16_S2048x16_1_0_0_1_n_n.lhsIdx_val_of_single rfl i q
theorem dot3_r0 (i : S2048x16.Idx) (q : dot_S2048x256_S256x16_S2048x16_1_0_0_1_n_n.contr.Idx) :
    (dot_S2048x256_S256x16_S2048x16_1_0_0_1_n_n.rhsIdx i q 0).val = (q ⟨0, by decide⟩).val :=
  dot_S2048x256_S256x16_S2048x16_1_0_0_1_n_n.rhsIdx_val_of_single rfl i q
theorem dot3_r1 (i : S2048x16.Idx) (q : dot_S2048x256_S256x16_S2048x16_1_0_0_1_n_n.contr.Idx) :
    (dot_S2048x256_S256x16_S2048x16_1_0_0_1_n_n.rhsIdx i q 1).val = (i 1).val := by
  unfold DotDims.rhsIdx
  rw [dif_neg (show ¬(1 : Fin S256x16.rank) ∈ dot_S2048x256_S256x16_S2048x16_1_0_0_1_n_n.rhsBatch by decide),
    dif_pos (show (1 : Fin S256x16.rank) ∈ dot_S2048x256_S256x16_S2048x16_1_0_0_1_n_n.rhsNonContracting by decide)]
  rfl

/-! ## Each stage at an index -/

/-- The first layer at row `p`, unit `j`. -/
theorem dense1_apply (x : FVec Ideal S2048x128 .f32) (w : FVec Ideal S128x256 .f32) (b : FVec Ideal S1x256 .f32)
    (p : Fin 2048) (j : Fin 256) :
    dense1 x w b (ix2 p j) = max ((∑ k : Fin 128, x (ix2 p k) * w (ix2 k j)) + b (ix2 (0 : Fin 1) j)) zeroW := by
  unfold dense1
  rw [shapeCast_self, shapeCast_self, maximumf_apply, addf_apply,
    Cert.LibMatmulRows.matmul_zero_apply dot_S2048x128_S128x256_S2048x256_1_0_0_1_n_n rfl rfl dot1_l0 dot1_l1 dot1_r0 dot1_r1,
    broadcastTo_1b_ab_apply]
  rfl

/-- The second layer at row `p`, unit `j`. -/
theorem dense2_apply (h : FVec Ideal S2048x256 .f32) (w : FVec Ideal S256x256 .f32) (b : FVec Ideal S1x256 .f32)
    (p : Fin 2048) (j : Fin 256) :
    dense2 h w b (ix2 p j) = max ((∑ k : Fin 256, h (ix2 p k) * w (ix2 k j)) + b (ix2 (0 : Fin 1) j)) zeroW := by
  unfold dense2
  rw [shapeCast_self, shapeCast_self, maximumf_apply, addf_apply,
    Cert.LibMatmulRows.matmul_zero_apply dot_S2048x256_S256x256_S2048x256_1_0_0_1_n_n rfl rfl dot2_l0 dot2_l1 dot2_r0 dot2_r1,
    broadcastTo_1b_ab_apply]
  rfl

/-- The third layer at row `p`, output `j`. -/
theorem dense3_apply (h : FVec Ideal S2048x256 .f32) (w : FVec Ideal S256x16 .f32) (b : FVec Ideal S1x16 .f32)
    (p : Fin 2048) (j : Fin 16) :
    dense3 h w b (ix2 p j) = (∑ k : Fin 256, h (ix2 p k) * w (ix2 k j)) + b (ix2 (0 : Fin 1) j) := by
  unfold dense3
  rw [shapeCast_self, shapeCast_self, addf_apply,
    Cert.LibMatmulRows.matmul_zero_apply dot_S2048x256_S256x16_S2048x16_1_0_0_1_n_n rfl rfl dot3_l0 dot3_l1 dot3_r0 dot3_r1,
    broadcastTo_1b_ab_apply]

/-- The tail at row `p`, action `a`: the bucket of the mean, the scale and the noise found there. -/
theorem squash_apply (n : FVec Ideal S2048x16 .f32) (e : FVec Ideal S2048x8 .f32) (p : Fin 2048) (a : Fin 8) :
    squash n e (ix2 p a) = bucket (n (ix2 p (meanCol a))) (n (ix2 p (scaleCol a))) (e (ix2 p a)) := by
  have hm := slice2_axis1_apply 0 n slices_S2048x16_o0_0_S2048x8 p a (meanCol a) (Nat.zero_add _).symm
  have hs := slice2_axis1_apply 8 n slices_S2048x16_o0_8_S2048x8 p a (scaleCol a) rfl
  have key : squash n e (ix2 p a) = Ideal.fptosi 32 (Ideal.logistic
      (extractStridedSlice S2048x8 ![0, 0] n slices_S2048x16_o0_0_S2048x8 (ix2 p a)
        + max (extractStridedSlice S2048x8 ![0, 8] n slices_S2048x16_o0_8_S2048x8 (ix2 p a))
            (-(extractStridedSlice S2048x8 ![0, 8] n slices_S2048x16_o0_8_S2048x8 (ix2 p a))) * e (ix2 p a)) * eightW + oneW) := rfl
  rw [key, hm, hs]
  unfold bucket Ideal.logistic
  rw [oneW_eq]

/-! ## The body against the specification -/

section Spec
variable (x : Mat 262144 128) (W1 : Mat 256 128) (b1 : Vect 256) (W2 : Mat 256 256) (b2 : Vect 256)
  (W3 : Mat 16 256) (b3 : Vect 16) (eps : Mat 262144 8)

/-- When block row `p` holds array row `r` of the state, the weights are held transposed and the biases as
    one-row matrices, the body's stored value at `(p, a)` is the specification at `(r, a)`. -/
theorem payload_apply (v0 : Vec Ideal S2048x128 .f32) (v1 : Vec Ideal S128x256 .f32) (v4 : Vec Ideal S1x256 .f32)
    (v10 : Vec Ideal S256x256 .f32) (v13 : Vec Ideal S1x256 .f32) (v19 : Vec Ideal S256x16 .f32) (v22 : Vec Ideal S1x16 .f32)
    (v29 : Vec Ideal S2048x8 .f32) (r : Fin 262144) (p : Fin 2048)
    (h0 : ∀ k : Fin 128, v0 (ix2 p k) = x (ix2 r k))
    (h1 : ∀ (k : Fin 128) (j : Fin 256), v1 (ix2 k j) = W1 (ix2 j k))
    (h4 : ∀ j : Fin 256, v4 (ix2 (0 : Fin 1) j) = b1 (ix1 j))
    (h10 : ∀ (k : Fin 256) (j : Fin 256), v10 (ix2 k j) = W2 (ix2 j k))
    (h13 : ∀ j : Fin 256, v13 (ix2 (0 : Fin 1) j) = b2 (ix1 j))
    (h19 : ∀ (k : Fin 256) (j : Fin 16), v19 (ix2 k j) = W3 (ix2 j k))
    (h22 : ∀ j : Fin 16, v22 (ix2 (0 : Fin 1) j) = b3 (ix1 j))
    (h29 : ∀ a : Fin 8, v29 (ix2 p a) = eps (ix2 r a)) (a : Fin 8) :
    k0_pay1 (k0_pay2 (F := Ideal) v0 v1 v4 v10 v13 v19 v22 v29) (k0_pay3 (F := Ideal)) (ix2 p a)
      = actionAt x W1 b1 W2 b2 W3 b3 eps r a := by
  have l1 : ∀ j : Fin 256, dense1 v0 v1 v4 (ix2 p j) = hidden1 x W1 b1 r j := fun j => by
    rw [dense1_apply]; unfold hidden1; simp only [h0, h1, h4]
  have l2 : ∀ j : Fin 256, dense2 (dense1 v0 v1 v4) v10 v13 (ix2 p j) = hidden2 x W1 b1 W2 b2 r j := fun j => by
    rw [dense2_apply]; unfold hidden2; simp only [l1, h10, h13]
  have l3 : ∀ j : Fin 16, dense3 (dense2 (dense1 v0 v1 v4) v10 v13) v19 v22 (ix2 p j) = head x W1 b1 W2 b2 W3 b3 r j := fun j => by
    rw [dense3_apply]; unfold head; simp only [l2, h19, h22]
  rw [payload_eq, squash_apply, l3, l3, h29]
  rfl

end Spec

end Cert.KernelIdeal.Body

end
-- ==== Proof.Blocks.lean ====
/-
  From the 128 blocks to the whole result array.

  The kernel walks the 262144 rows in 128 steps.  At step `t` it is handed rows `2048·t … 2048·t + 2047` of the
  state and of the noise, and — the same at every step — the whole of the three weight matrices and biases,
  which @main prepared beforehand: each weight matrix transposed, each bias recast as a one-row matrix.  So
    * row `p` of the state block at step `t` is row `2048·t + p` of the state array, and likewise for the noise;
    * the entry `(k, j)` of a weight block is the entry `(j, k)` of the weight argument;
    * the entry `(0, j)` of a bias block is entry `j` of the bias argument.
  With these reads the body's stored value at `(p, a)` is the specification at `(2048·t + p, a)` (the body
  lemma), that is: what step `t` writes back is block `t` of the specification's array.  Every row `r` lies in
  exactly the block of step `r / 2048`, so the 128 blocks cover the result array, and the array after the run
  is the specification's function of the eight arguments.
-/
import proofs.«124091_j34110630265503_2_alg».proof.Proof.Gen.KernelIdeal.Value
import proofs.«124091_j34110630265503_2_alg».proof.Proof.Body
import Idealize.ShloMosaic.Lib.StableHlo.Run
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Policy
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at step `t`, decided over the 128 steps: the state, the noise and the result
    move down one block of rows per step; the weights and biases stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## What @main prepared before the region -/

theorem entry_w1 (c : Dev nD) : (V m c main_v0 : S128x256.Idx → EReal)
    = transpose S128x256 [1, 0] (m ((c : Thread nD τ).loc main_arg1)) transposes_S256x128_S128x256_1_0 := by
  dsimp only [Gen.V, Gen.hostOps0]; after_results
theorem entry_w2 (c : Dev nD) : (V m c main_v1 : S256x256.Idx → EReal)
    = transpose S256x256 [1, 0] (m ((c : Thread nD τ).loc main_arg3)) transposes_S256x256_S256x256_1_0 := by
  dsimp only [Gen.V, Gen.hostOps0]; after_results
theorem entry_w3 (c : Dev nD) : (V m c main_v2 : S256x16.Idx → EReal)
    = transpose S256x16 [1, 0] (m ((c : Thread nD τ).loc main_arg5)) transposes_S16x256_S256x16_1_0 := by
  dsimp only [Gen.V, Gen.hostOps0]; after_results
theorem entry_b1 (c : Dev nD) : (V m c main_v3 : S1x256.Idx → EReal)
    = shapeCast S1x256 (m ((c : Thread nD τ).loc main_arg2)) shapeCasts_S256_S1x256 := by
  dsimp only [Gen.V, Gen.hostOps0]; after_results; rfl
theorem entry_b2 (c : Dev nD) : (V m c main_v4 : S1x256.Idx → EReal)
    = shapeCast S1x256 (m ((c : Thread nD τ).loc main_arg4)) shapeCasts_S256_S1x256 := by
  dsimp only [Gen.V, Gen.hostOps0]; after_results; rfl
theorem entry_b3 (c : Dev nD) : (V m c main_v5 : S1x16.Idx → EReal)
    = shapeCast S1x16 (m ((c : Thread nD τ).loc main_arg6)) shapeCasts_S16_S1x16 := by
  dsimp only [Gen.V, Gen.hostOps0]; after_results; rfl

/-! ## The blocks' reads -/

/-- Row `p` of the state block at step `t` is row `2048·t + p` of the state. -/
theorem read_state (c : Dev nD) (t : Fin cfg0.N) (p : Fin 2048) (k : Fin 128) (r : Fin 262144) (hr : r.val = t.val * 2048 + p.val) :
    iblk m c 0 t (ix2 p k) = (m ((c : Thread nD τ).loc main_arg0)) (ix2 r k) := by
  have e : ((cfg0.win 0).blk t).view.emb (ix2 p k) = ix2 r k := by
    funext a; apply Fin.ext
    obtain ⟨e0, e1, -⟩ := index_facts t
    match a with
    | ⟨0, _⟩ => show win0_0.index t (0 : Fin 2) * 2048 + 1 * p.val = r.val; rw [e0, hr]; omega
    | ⟨1, _⟩ => show win0_0.index t (1 : Fin 2) * 128 + 1 * k.val = k.val; rw [e1]; omega
  show V m c main_arg0 (((cfg0.win 0).blk t).view.emb (ix2 p k)) = _
  rw [e, V_main_arg0]

/-- Row `p` of the noise block at step `t` is row `2048·t + p` of the noise. -/
theorem read_noise (c : Dev nD) (t : Fin cfg0.N) (p : Fin 2048) (a : Fin 8) (r : Fin 262144) (hr : r.val = t.val * 2048 + p.val) :
    iblk m c 1 t (ix2 p a) = (m ((c : Thread nD τ).loc main_arg7)) (ix2 r a) := by
  have e : ((cfg0.win 1).blk t).view.emb (ix2 p a) = ix2 r a := by
    funext b; apply Fin.ext
    obtain ⟨-, -, e0, e1, -⟩ := index_facts t
    match b with
    | ⟨0, _⟩ => show win0_1.index t (0 : Fin 2) * 2048 + 1 * p.val = r.val; rw [e0, hr]; omega
    | ⟨1, _⟩ => show win0_1.index t (1 : Fin 2) * 8 + 1 * a.val = a.val; rw [e1]; omega
  show V m c main_arg7 (((cfg0.win 1).blk t).view.emb (ix2 p a)) = _
  rw [e, V_main_arg7]

/-- The first weight block holds the first weight matrix transposed. -/
theorem read_w1 (c : Dev nD) (t : Fin cfg0.N) (k : Fin 128) (j : Fin 256) :
    iblk m c 2 t (ix2 k j) = (m ((c : Thread nD τ).loc main_arg1)) (ix2 j k) := by
  have e : ((cfg0.win 2).blk t).view.emb (ix2 k j) = ix2 k j := by
    funext a; apply Fin.ext
    obtain ⟨-, -, -, -, e0, e1, -⟩ := index_facts t
    match a with
    | ⟨0, _⟩ => show win0_2.index t (0 : Fin 2) * 128 + 1 * k.val = k.val; rw [e0]; omega
    | ⟨1, _⟩ => show win0_2.index t (1 : Fin 2) * 256 + 1 * j.val = j.val; rw [e1]; omega
  show V m c main_v0 (((cfg0.win 2).blk t).view.emb (ix2 k j)) = _
  rw [e]
  show (V m c main_v0 : S128x256.Idx → EReal) (ix2 k j) = _
  rw [entry_w1, transpose_ix2_apply]

/-- The first bias block holds the first bias as one row. -/
theorem read_b1 (c : Dev nD) (t : Fin cfg0.N) (j : Fin 256) :
    iblk m c 3 t (ix2 (0 : Fin 1) j) = (m ((c : Thread nD τ).loc main_arg2)) (ix1 j) := by
  have e : ((cfg0.win 3).blk t).view.emb (ix2 (0 : Fin 1) j) = ix2 (0 : Fin 1) j := by
    funext a; apply Fin.ext
    obtain ⟨-, -, -, -, -, -, e0, e1, -⟩ := index_facts t
    match a with
    | ⟨0, _⟩ => show win0_3.index t (0 : Fin 2) * 1 + 1 * 0 = 0; rw [e0]
    | ⟨1, _⟩ => show win0_3.index t (1 : Fin 2) * 256 + 1 * j.val = j.val; rw [e1]; omega
  show V m c main_v3 (((cfg0.win 3).blk t).view.emb (ix2 (0 : Fin 1) j)) = _
  rw [e]
  show (V m c main_v3 : S1x256.Idx → EReal) (ix2 (0 : Fin 1) j) = _
  rw [entry_b1, shapeCast_a_1a_apply]

/-- The second weight block holds the second weight matrix transposed. -/
theorem read_w2 (c : Dev nD) (t : Fin cfg0.N) (k : Fin 256) (j : Fin 256) :
    iblk m c 4 t (ix2 k j) = (m ((c : Thread nD τ).loc main_arg3)) (ix2 j k) := by
  have e : ((cfg0.win 4).blk t).view.emb (ix2 k j) = ix2 k j := by
    funext a; apply Fin.ext
    obtain ⟨-, -, -, -, -, -, -, -, e0, e1, -⟩ := index_facts t
    match a with
    | ⟨0, _⟩ => show win0_4.index t (0 : Fin 2) * 256 + 1 * k.val = k.val; rw [e0]; omega
    | ⟨1, _⟩ => show win0_4.index t (1 : Fin 2) * 256 + 1 * j.val = j.val; rw [e1]; omega
  show V m c main_v1 (((cfg0.win 4).blk t).view.emb (ix2 k j)) = _
  rw [e]
  show (V m c main_v1 : S256x256.Idx → EReal) (ix2 k j) = _
  rw [entry_w2, transpose_ix2_apply]

/-- The second bias block holds the second bias as one row. -/
theorem read_b2 (c : Dev nD) (t : Fin cfg0.N) (j : Fin 256) :
    iblk m c 5 t (ix2 (0 : Fin 1) j) = (m ((c : Thread nD τ).loc main_arg4)) (ix1 j) := by
  have e : ((cfg0.win 5).blk t).view.emb (ix2 (0 : Fin 1) j) = ix2 (0 : Fin 1) j := by
    funext a; apply Fin.ext
    obtain ⟨-, -, -, -, -, -, -, -, -, -, e0, e1, -⟩ := index_facts t
    match a with
    | ⟨0, _⟩ => show win0_5.index t (0 : Fin 2) * 1 + 1 * 0 = 0; rw [e0]
    | ⟨1, _⟩ => show win0_5.index t (1 : Fin 2) * 256 + 1 * j.val = j.val; rw [e1]; omega
  show V m c main_v4 (((cfg0.win 5).blk t).view.emb (ix2 (0 : Fin 1) j)) = _
  rw [e]
  show (V m c main_v4 : S1x256.Idx → EReal) (ix2 (0 : Fin 1) j) = _
  rw [entry_b2, shapeCast_a_1a_apply]

/-- The third weight block holds the third weight matrix transposed. -/
theorem read_w3 (c : Dev nD) (t : Fin cfg0.N) (k : Fin 256) (j : Fin 16) :
    iblk m c 6 t (ix2 k j) = (m ((c : Thread nD τ).loc main_arg5)) (ix2 j k) := by
  have e : ((cfg0.win 6).blk t).view.emb (ix2 k j) = ix2 k j := by
    funext a; apply Fin.ext
    obtain ⟨-, -, -, -, -, -, -, -, -, -, -, -, e0, e1, -⟩ := index_facts t
    match a with
    | ⟨0, _⟩ => show win0_6.index t (0 : Fin 2) * 256 + 1 * k.val = k.val; rw [e0]; omega
    | ⟨1, _⟩ => show win0_6.index t (1 : Fin 2) * 16 + 1 * j.val = j.val; rw [e1]; omega
  show V m c main_v2 (((cfg0.win 6).blk t).view.emb (ix2 k j)) = _
  rw [e]
  show (V m c main_v2 : S256x16.Idx → EReal) (ix2 k j) = _
  rw [entry_w3, transpose_ix2_apply]

/-- The third bias block holds the third bias as one row. -/
theorem read_b3 (c : Dev nD) (t : Fin cfg0.N) (j : Fin 16) :
    iblk m c 7 t (ix2 (0 : Fin 1) j) = (m ((c : Thread nD τ).loc main_arg6)) (ix1 j) := by
  have e : ((cfg0.win 7).blk t).view.emb (ix2 (0 : Fin 1) j) = ix2 (0 : Fin 1) j := by
    funext a; apply Fin.ext
    obtain ⟨-, -, -, -, -, -, -, -, -, -, -, -, -, -, e0, e1, -⟩ := index_facts t
    match a with
    | ⟨0, _⟩ => show win0_7.index t (0 : Fin 2) * 1 + 1 * 0 = 0; rw [e0]
    | ⟨1, _⟩ => show win0_7.index t (1 : Fin 2) * 16 + 1 * j.val = j.val; rw [e1]; omega
  show V m c main_v5 (((cfg0.win 7).blk t).view.emb (ix2 (0 : Fin 1) j)) = _
  rw [e]
  show (V m c main_v5 : S1x16.Idx → EReal) (ix2 (0 : Fin 1) j) = _
  rw [entry_b3, shapeCast_a_1a_apply]

/-! ## What a step writes back, the cover, and the array after the run -/

/-- What step `t` writes back is block `t` of the specification's array. -/
theorem flushed_eq (c : Dev nD) (t : Fin cfg0.N) :
    (dats m 0 c).flushed 8 t = ((cfg0.win 8).blk t).view.read (Elt Ideal)
      (action (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8]
  unfold out0_8
  rw [View.canon_unit_zero zero_offsets]
  simp only [View.ld_unit_zero (S := S2048x128) zero_offsets, View.ld_unit_zero (S := S2048x8) zero_offsets,
    View.ld_unit_zero (S := S128x256) zero_offsets, View.ld_unit_zero (S := S1x256) zero_offsets,
    View.ld_unit_zero (S := S256x256) zero_offsets, View.ld_unit_zero (S := S256x16) zero_offsets,
    View.ld_unit_zero (S := S1x16) zero_offsets]
  funext j
  obtain ⟨p, a, rfl⟩ : ∃ (p : Fin 2048) (a : Fin 8), j = ix2 p a := ⟨j 0, j 1, eq_ix2 j⟩
  have ht : t.val < 128 := Nat.lt_of_lt_of_eq t.isLt N_0
  have hr : t.val * 2048 + p.val < 262144 := by have := p.isLt; omega
  have e : ((cfg0.win 8).blk t).view.emb (ix2 p a) = ix2 (⟨t.val * 2048 + p.val, hr⟩ : Fin 262144) a := by
    funext b; apply Fin.ext
    obtain ⟨-, -, -, -, -, -, -, -, -, -, -, -, -, -, -, -, e0, e1⟩ := index_facts t
    match b with
    | ⟨0, _⟩ => show win0_8.index t (0 : Fin 2) * 2048 + 1 * p.val = t.val * 2048 + p.val; rw [e0]; omega
    | ⟨1, _⟩ => show win0_8.index t (1 : Fin 2) * 8 + 1 * a.val = a.val; rw [e1]; omega
  show k0_pay1 (k0_pay2 (F := Ideal) (iblk m c 0 t) (iblk m c 2 t) (iblk m c 3 t) (iblk m c 4 t) (iblk m c 5 t) (iblk m c 6 t) (iblk m c 7 t) (iblk m c 1 t)) (k0_pay3 (F := Ideal)) (ix2 p a)
    = action (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix2 p a))
  rw [e, action_ix2]
  exact Body.payload_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 2 t) (iblk m c 3 t) (iblk m c 4 t) (iblk m c 5 t) (iblk m c 6 t) (iblk m c 7 t) (iblk m c 1 t)
    ⟨t.val * 2048 + p.val, hr⟩ p
    (fun k => read_state m c t p k _ rfl) (fun k j => read_w1 m c t k j) (fun j => read_b1 m c t j)
    (fun k j => read_w2 m c t k j) (fun j => read_b2 m c t j) (fun k j => read_w3 m c t k j) (fun j => read_b3 m c t j)
    (fun a => read_noise m c t p a _ rfl) a

/-- An index of the result array is in step `t`'s block iff each coordinate is in the block's range on its axis. -/
theorem mem_block (t : Fin cfg0.N) (i : S262144x8.Idx) :
    i ∈ ((cfg0.win 8).blk t).view.set ↔ ∀ a : Fin 2, win0_8.index t a * S2048x8.size a ≤ (i a).val ∧ (i a).val < win0_8.index t a * S2048x8.size a + S2048x8.size a := by
  show i ∈ ((View.whole main_v6).slice (win0_8.rect t)).set ↔ _
  rw [View.set_slice_whole, Rect.mem_set_unit]
  exact Iff.rfl

/-- Every index of the result array is in the block of step `row / 2048`. -/
theorem covered (i : S262144x8.Idx) : ∃ t : Fin cfg0.N, (cfg0.win 8).flush t = true ∧ i ∈ ((cfg0.win 8).blk t).view.set := by
  have hi0 : (i 0).val < 262144 := idx2_lt0 i
  have hi1 : (i 1).val < 8 := idx2_lt1 i
  obtain ⟨t, ht⟩ : ∃ t : Fin cfg0.N, t.val = (i 0).val / 2048 :=
    ⟨⟨(i 0).val / 2048, Nat.lt_of_lt_of_eq (by omega : (i 0).val / 2048 < 128) N_0.symm⟩, rfl⟩
  refine ⟨t, flush0_8 t, ?_⟩
  rw [mem_block]
  obtain ⟨-, -, -, -, -, -, -, -, -, -, -, -, -, -, -, -, e0, e1⟩ := index_facts t
  intro a
  match a with
  | ⟨0, _⟩ => show win0_8.index t (0 : Fin 2) * 2048 ≤ (i 0).val ∧ (i 0).val < win0_8.index t (0 : Fin 2) * 2048 + 2048; rw [e0, ht]; omega
  | ⟨1, _⟩ => show win0_8.index t (1 : Fin 2) * 8 ≤ (i 1).val ∧ (i 1).val < win0_8.index t (1 : Fin 2) * 8 + 8; rw [e1]; omega

/-- The result array after the run is the specification's function of the eight argument arrays. -/
theorem final (c : Dev nD) : (dats m 0 c).arrAt 8 cfg0.N = action (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) covered

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v6) = action (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.lean ====
/-
  Two programs for one stochastic policy head, equal at the exact values.

  Both take a state (262144 rows of 128 numbers), three dense layers' weights and biases, and a noise array
  (262144 × 8).  Each row goes through two rectified dense layers of width 256 and a third layer of width 16;
  the first eight outputs are means, the last eight scales; the sample `mean + |scale| · noise` is squashed
  by the logistic function, scaled to `8 σ + 1` and truncated to a 32-bit integer.  One program walks the
  rows in 128 blocks of 2048 with the weights transposed and the biases recast beforehand, and uses one
  logistic operation; the other treats every row at once and spells the logistic function as
  `1 / (1 + exp (-z))`.

  Over the extended reals a matrix product is the plain sum of products whatever its tiling, a change of
  layout only moves entries, and the logistic operation IS `1 / (1 + exp (-z))`; so both results are the
  one function `Cert.Policy.action` of the eight argument arrays (Proof/Spec.lean):
    * the blocked program's result array is that function (Proof/Body.lean: one block at a row and a
      column; Proof/Blocks.lean: the 128 blocks cover the array),
    * the whole-array program's result is that function (Proof/RefValue.lean, stage by stage),
  and the arguments agree by hypothesis.  No step uses a law that fails at an infinity — only that sums
  and products are read entry by entry — so the finiteness of the inputs is never opened.  The three runs'
  termination and the unchanged arguments are the generated frame runs; nothing was rewritten on the way
  from the word-level program to its exact reading, so that conjunct is `True`.
-/
import proofs.«124091_j34110630265503_2_alg».proof.Defs
import proofs.«124091_j34110630265503_2_alg».proof.Proof.Gen.Kernel
import proofs.«124091_j34110630265503_2_alg».proof.Proof.Gen.Kernel.Skeleton
import proofs.«124091_j34110630265503_2_alg».proof.Proof.Gen.Kernel.Launch
import proofs.«124091_j34110630265503_2_alg».proof.Proof.Gen.Kernel.Points
import proofs.«124091_j34110630265503_2_alg».proof.Proof.Gen.Kernel.Frame
import proofs.«124091_j34110630265503_2_alg».proof.Proof.Gen.KernelIdeal
import proofs.«124091_j34110630265503_2_alg».proof.Proof.Gen.KernelIdeal.Skeleton
import proofs.«124091_j34110630265503_2_alg».proof.Proof.Gen.KernelIdeal.Launch
import proofs.«124091_j34110630265503_2_alg».proof.Proof.Gen.KernelIdeal.Points
import proofs.«124091_j34110630265503_2_alg».proof.Proof.Gen.KernelIdeal.Frame
import proofs.«124091_j34110630265503_2_alg».proof.Proof.Gen.ReferenceIdeal
import proofs.«124091_j34110630265503_2_alg».proof.Proof.Gen.Pre_finite_inputs
import proofs.«124091_j34110630265503_2_alg».proof.Proof.Gen.KernelIdeal.Value
import proofs.«124091_j34110630265503_2_alg».proof.Proof.Gen.ReferenceIdeal.Run
import proofs.«124091_j34110630265503_2_alg».proof.Proof.Gen.ReferenceIdeal.Read
import proofs.«124091_j34110630265503_2_alg».proof.Proof.Spec
import proofs.«124091_j34110630265503_2_alg».proof.Proof.RefValue
import proofs.«124091_j34110630265503_2_alg».proof.Proof.Body
import proofs.«124091_j34110630265503_2_alg».proof.Proof.Blocks
import Idealize.ShloMosaic.Adequacy
import Idealize.ShloMosaic.Init

noncomputable section

namespace Cert.Proof

open Idealize.ShloMosaic Idealize.ShloMosaic.TcCoe Idealize.SL.Sem

/-- The word-level program terminates, faults nowhere and leaves its arguments as they were. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- So does the whole-array program: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact reading rewrote no operation. -/
theorem preserves : Cert.preserves_Kernel_KernelIdeal := trivial

/-- From memories agreeing on the eight arguments, both programs end with the result array at the one
    function `Cert.Policy.action` of those arguments. -/
theorem algebraic : Cert.algebraic_KernelIdeal_ReferenceIdeal := by
  intro m ρ m' ρ' _ hagree
  refine ⟨fun c => Cert.Policy.action (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v32_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
